-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x64 : Shape := ⟨2, ![100000, 64]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x100000 .f32) (main_arg1 : FVec F S100000x64 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x100000 : Shape := ⟨2, ![1024, 100000]⟩
abbrev S100000x64 : Shape := ⟨2, ![100000, 64]⟩
abbrev S100000x1024 : Shape := ⟨2, ![100000, 1024]⟩
abbrev S2x1024x64 : Shape := ⟨3, ![2, 1024, 64]⟩
abbrev S1024x64 : Shape := ⟨2, ![1024, 64]⟩
abbrev S5000x1024 : Shape := ⟨2, ![5000, 1024]⟩
abbrev S5000x64 : Shape := ⟨2, ![5000, 64]⟩
abbrev S1x1024x64 : Shape := ⟨3, ![1, 1024, 64]⟩

abbrev nBuf : Space → Nat
  | .hbm => 6
  | .vmem => 8
  | .smem => 0
  | _ => 0

abbrev bufTy : (tb : Table) → Fin (tcTables nBuf tb) → BufTy
  | .hbm, ⟨0, _⟩ => ⟨S1024x100000, .f32⟩
  | .hbm, ⟨1, _⟩ => ⟨S100000x64, .f32⟩
  | .hbm, ⟨2, _⟩ => ⟨S100000x1024, .f32⟩
  | .hbm, ⟨3, _⟩ => ⟨S100000x64, .bf16⟩
  | .hbm, ⟨4, _⟩ => ⟨S2x1024x64, .f32⟩
  | .hbm, ⟨5, _⟩ => ⟨S1024x64, .f32⟩
  | .local _ .vmem, ⟨0, _⟩ => ⟨S5000x1024, .f32⟩
  | .local _ .vmem, ⟨1, _⟩ => ⟨S5000x1024, .f32⟩
  | .local _ .vmem, ⟨2, _⟩ => ⟨S5000x64, .bf16⟩
  | .local _ .vmem, ⟨3, _⟩ => ⟨S5000x64, .bf16⟩
  | .local _ .vmem, ⟨4, _⟩ => ⟨S1x1024x64, .f32⟩
  | .local _ .vmem, ⟨5, _⟩ => ⟨S1x1024x64, .f32⟩
  | .local _ .vmem, ⟨6, _⟩ => ⟨S2x1024x64, .f32⟩
  | .local _ .vmem, ⟨7, _⟩ => ⟨S1024x64, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

abbrev stage1_0 : Fin 1 → Memref sig .tc .vmem S2x1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

class Facts₀ : Prop where
  transposes_S1024x100000_S100000x1024_1_0 : S1024x100000.Transposes [1, 0] S100000x1024
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  inb_S5000x1024_S5000x1024_0_0 : ∀ a, (![0, 0] : Fin 2 → Nat) a + S5000x1024.size a ≤ S5000x1024.size a
  h_S5000x1024 : 0 < S5000x1024.numel
  shapeCasts_S5000x1024_S5000x1024 : S5000x1024.ShapeCasts S5000x1024
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S1024x64_S1x1024x64 : S1024x64.ShapeCasts S1x1024x64
  inb_S2x1024x64_S1x1024x64_0_0_0 : ∀ a, (![0, 0, 0] : Fin 3 → Nat) a + S1x1024x64.size a ≤ S2x1024x64.size a
  shapeCasts_S1x1024x64_S1024x64 : S1x1024x64.ShapeCasts S1024x64
  inb_S2x1024x64_S1x1024x64_1_0_0 : ∀ a, (![1, 0, 0] : Fin 3 → Nat) a + S1x1024x64.size a ≤ S2x1024x64.size a
  inb_S1024x64_S1024x64_0_0 : ∀ a, (![0, 0] : Fin 2 → Nat) a + S1024x64.size a ≤ S1024x64.size a
  h_S1024x64 : 0 < S1024x64.numel
  dot_S5000x1024_S5000x64_S1024x64_0_0_1_1_n_n_wf : DotDims.WF S5000x1024 S5000x64 S1024x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1024.size a ≤ S100000x1024.size a
  hwx0_0 : ∀ i : grid0.Coords, EltTy.bits .f32 = 32 ∨ (Rect.block (s := S100000x1024) S5000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .bf16 = 32 ∨ (Rect.block (s := S100000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S2x1024x64.size a
  hwx0_2 : ∀ i : grid0.Coords, EltTy.bits .f32 = 32 ∨ (Rect.block (s := S2x1024x64) S1x1024x64.size (cc0_transform_2 i) (hinb0_2 i)).WholeWords (EltTy.packing .f32)
  hstage1_0 : ∀ j, (stage1_0 j).IsWhole
  hstage1_1 : ∀ j, (stage1_1 j).IsWhole

variable [Facts₀]

def dot_S5000x1024_S5000x64_S1024x64_0_0_1_1_n_n : DotDims S5000x1024 S5000x64 S1024x64 where
  lhsContracting := [0]
  rhsContracting := [0]
  lhsNonContracting := [1]
  rhsNonContracting := [1]
  lhsBatch := []
  rhsBatch := []
  wf := dot_S5000x1024_S5000x64_S1024x64_0_0_1_1_n_n_wf

abbrev win0_0 : Pipeline.Window sig grid0 :=
  Pipeline.Window.ofSpec (Memref.whole main_call0_v0) S5000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_call0_v2) false false (stage1_0 0) (sem1_0 0) (Memref.isWhole_whole _) (hstage1_0 0)

abbrev win1_1 : Pipeline.Window sig grid1 :=
  Pipeline.Window.whole (Memref.whole main_v0) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x100000 : Shape := ⟨2, ![1024, 100000]⟩
abbrev S100000x64 : Shape := ⟨2, ![100000, 64]⟩
abbrev S1024x64 : Shape := ⟨2, ![1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x64, .f32⟩
  | .hbm, ⟨2, _⟩ => ⟨S1024x64, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x100000_S100000x64_S1024x64_1_0_0_1_n_n_wf : DotDims.WF S1024x100000 S100000x64 S1024x64 [1] [0] [0] [1] [] []

variable [Facts₀]

def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf

class Facts : Prop extends Facts₀ where

variable [Facts]
-- ==== Proof.KernelRun.lean ====
/-
  The idealized kernel's program, run from any launch memory: every weakly fair execution of its two regions (the slab
  products accumulated per half, then the sum of the two halves) terminates without a fault, and the final state holds, in
  the result buffer, what the last boundary of the run holds there — the second region's array after its one write-back —
  with both argument arrays as launched.  The launch is the several-region one of the library, over the segments, the
  per-region proof data and the boundary contents that the generated frame module names; only the final reading differs
  from the frame: the result buffer is read beside the arguments.
-/
import proofs.«164869_g52544629899401_cont_sun_c4_509_25_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents and the arguments unchanged. -/
theorem run_result : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c)⟩)

end Cert.KernelIdeal.RunValue

end
-- ==== Proof.Body0.lean ====
/-
  What one grid point of the slab-product region leaves in the output's staging buffer.

  The body loads the output block (one [1,1024,64] block of partial sums), the point's slab of the transposed left factor
  ([5000,1024]) and the same slab of the right factor ([5000,64]), and stores back the block plus the slab's product: entry
  (p, q) of the product is the sum over the slab's 5000 rows k of left (k, p) times right (k, q) — both factors are
  contracted on their row axis.  At the first point of a half the block is first overwritten by zeros, so the point leaves
  zero plus the product; at every later point it leaves what the point before left plus the product.
-/
import proofs.«164869_g52544629899401_cont_sun_c4_509_25_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.ValueIdx

namespace Cert.KernelIdeal.Body0

open Cert.KernelIdeal Cert.KernelIdeal.Gen

variable {F : FTy → Type} [FloatOps F]

theorem off3 : (![0, 0, 0] : Fin 3 → Nat) = fun _ => 0 := funext fun a => by fin_cases a <;> rfl
theorem off2 : (![0, 0] : Fin 2 → Nat) = fun _ => 0 := funext fun a => by fin_cases a <;> rfl

/-- A later point of a half: over the block `xo` left by the point before, the body leaves the accumulate payload of
    `xo` and the point's two slabs — its one store covers the block and its loads read the whole buffers. -/
theorem later_point (c : Dev nD) (i : grid0.Coords) (a2 : Memref sig .tc .vmem S5000x1024 .f32) (h2 : a2.IsWhole)
    (a3 : Memref sig .tc .vmem S5000x64 .bf16) (h3 : a3.IsWhole) (a4 : Memref sig .tc .vmem S1x1024x64 .f32) (h4 : a4.IsWhole)
    (hc : ¬cond0_0 i) (x0 : Vec F S5000x1024 .f32) (x1 : Vec F S5000x64 .bf16) (xo : Vec F S1x1024x64 .f32) :
    out0_B_2 c i a2 h2 a3 h3 a4 h4 hc x0 x1 xo = k0_pay2 xo x0 x1 := by
  unfold out0_B_2
  rw [View.read_writes_eq_canon _ _ _ (cover0_B_2 c i a2 h2 a3 h3 a4 h4 hc x0 x1 xo)]
  unfold kernelRun0_B
  dsimp only
  rw [View.canon_unit_zero off3]
  simp only [View.readAt_eq_ld, h2.read_unread, h3.read_unread, h4.read_unread, View.ld_unit_zero (S := S1x1024x64) off3,
    View.ld_unit_zero (S := S5000x1024) off2, View.ld_unit_zero (S := S5000x64) off2]

/-- The first point of a half: the body stores the zero block, reads it back, and leaves the accumulate payload of the
    zero block and the point's two slabs. -/
theorem first_point (c : Dev nD) (i : grid0.Coords) (a2 : Memref sig .tc .vmem S5000x1024 .f32) (h2 : a2.IsWhole)
    (a3 : Memref sig .tc .vmem S5000x64 .bf16) (h3 : a3.IsWhole) (a4 : Memref sig .tc .vmem S1x1024x64 .f32) (h4 : a4.IsWhole)
    (hc : cond0_0 i) (x0 : Vec F S5000x1024 .f32) (x1 : Vec F S5000x64 .bf16) :
    out0_A_2 c i a2 h2 a3 h3 a4 h4 hc x0 x1 = k0_pay2 (k0_pay1 (F := F)) x0 x1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1024x64) off3, View.readCov_unit_zero (S := S1x1024x64) _ off3]
  simp only [View.readAt_eq_ld, h2.read_unread, h3.read_unread, View.ld_unit_zero (S := S5000x1024) off2,
    View.ld_unit_zero (S := S5000x64) off2]

/-! ## The product of one slab, entry by entry, over the extended reals -/

/-- The kernel's dimension record: both factors contracted on axis 0, the left's axis 1 and the right's axis 1 kept. -/
abbrev slabDims : DotDims S5000x1024 S5000x64 S1024x64 := dot_S5000x1024_S5000x64_S1024x64_0_0_1_1_n_n

theorem left_row (j : S1024x64.Idx) (r : slabDims.contr.Idx) : (slabDims.lhsIdx j r 0).val = (r ⟨0, by decide⟩).val :=
  slabDims.lhsIdx_val_of_single rfl j r
theorem left_col (j : S1024x64.Idx) (r : slabDims.contr.Idx) : (slabDims.lhsIdx j r 1).val = (j 0).val := by
  unfold DotDims.lhsIdx
  rw [dif_neg (show ¬(1 : Fin S5000x1024.rank) ∈ slabDims.lhsBatch by decide),
    dif_pos (show (1 : Fin S5000x1024.rank) ∈ slabDims.lhsNonContracting by decide)]
  rfl
theorem right_row (j : S1024x64.Idx) (r : slabDims.contr.Idx) : (slabDims.rhsIdx j r 0).val = (r ⟨0, by decide⟩).val :=
  slabDims.rhsIdx_val_of_single rfl j r
theorem right_col (j : S1024x64.Idx) (r : slabDims.contr.Idx) : (slabDims.rhsIdx j r 1).val = (j 1).val := by
  unfold DotDims.rhsIdx
  rw [dif_neg (show ¬(1 : Fin S5000x64.rank) ∈ slabDims.rhsBatch by decide),
    dif_pos (show (1 : Fin S5000x64.rank) ∈ slabDims.rhsNonContracting by decide)]
  rfl

/-- Into a zero accumulator, entry (p, q) of the slab product is the sum over the slab's rows k of left (k, p) · right (k, q). -/
theorem slab_product_apply (a : FVec Ideal S5000x1024 .bf16) (b : FVec Ideal S5000x64 .bf16) (p : Fin 1024) (q : Fin 64) :
    matmul (F := Ideal) slabDims none a b (constant (F := Ideal) S1024x64 .f32 0x00000000#32) (ix2 p q)
      = ∑ k : Fin 5000, a (ix2 k p) * b (ix2 k q) := by
  show FloatOps.matmul slabDims none a b (constant (F := Ideal) S1024x64 .f32 0x00000000#32) (ix2 p q) = _
  rw [Ideal.matmul_constant_zero_apply, ← Equiv.sum_comp (contrEquiv1 slabDims 5000 rfl rfl).symm]
  refine Finset.sum_congr rfl fun k _ => ?_
  have hk := contrEquiv1_symm_val slabDims 5000 rfl rfl k
  have el : slabDims.lhsIdx (ix2 p q) ((contrEquiv1 slabDims 5000 rfl rfl).symm k) = ix2 k p := funext fun d => Fin.ext (by
    match d with
    | ⟨0, _⟩ => exact (left_row _ _).trans hk
    | ⟨1, _⟩ => exact left_col _ _)
  have er : slabDims.rhsIdx (ix2 p q) ((contrEquiv1 slabDims 5000 rfl rfl).symm k) = ix2 k q := funext fun d => Fin.ext (by
    match d with
    | ⟨0, _⟩ => exact (right_row _ _).trans hk
    | ⟨1, _⟩ => exact right_col _ _)
  rw [el, er]

/-- The accumulate payload at entry (u, p, q) of the block: the old entry plus the slab product's entry (p, q). -/
theorem accumulate_apply (v3 : Vec Ideal S1x1024x64 .f32) (v5 : Vec Ideal S5000x1024 .f32) (v8 : Vec Ideal S5000x64 .bf16)
    (u : Fin 1) (p : Fin 1024) (q : Fin 64) :
    k0_pay2 (F := Ideal) v3 v5 v8 (ix3 u p q) = v3 (ix3 u p q) + ∑ k : Fin 5000, v5 (ix2 k p) * v8 (ix2 k q) := by
  unfold k0_pay2
  rw [shapeCast_self v3, shapeCast_self v5, shapeCast_self v8, addf_apply]
  refine congrArg (v3 (ix3 u p q) + ·) ?_
  refine (shapeCast_addUnit_apply ![1024, 64] _ shapeCasts_S1024x64_S1x1024x64 (ix3 u p q)).trans ?_
  rw [show (fun a : Fin 2 => ix3 u p q a.succ) = ix2 p q from
    funext fun a => by match a with | ⟨0, _⟩ => rfl | ⟨1, _⟩ => rfl]
  exact slab_product_apply _ _ p q

end Cert.KernelIdeal.Body0

end
-- ==== Proof.LibTileSum.lean ====
/-
  A sum over `Q * w` consecutive positions taken tile by tile: `Q` tiles of `w` positions each, position
  `b * w + l` being lane `l` of tile `b`. Only commutativity and associativity of the addition are used, so the
  statement holds in every additive commutative monoid.
-/
import Mathlib.Algebra.BigOperators.Fin
import Mathlib.Logic.Equiv.Fin.Basic
import Mathlib.Tactic

namespace Cert.TileSum

variable {M : Type*} [AddCommMonoid M]

/-- Position `b * w + l` of `Q * w`. -/
def pos {Q w : ℕ} (b : Fin Q) (l : Fin w) : Fin (Q * w) :=
  ⟨b.val * w + l.val, by
    have hb := b.isLt; have hl := l.isLt
    calc b.val * w + l.val < b.val * w + w := by omega
      _ = (b.val + 1) * w := by ring
      _ ≤ Q * w := Nat.mul_le_mul_right w hb⟩

/-- The sum over all positions is the sum over the tiles of the sums over their lanes. -/
theorem sum_tiles {Q w : ℕ} (g : Fin (Q * w) → M) :
    ∑ n, g n = ∑ b : Fin Q, ∑ l : Fin w, g (pos b l) := by
  rw [← Fintype.sum_prod_type' (fun b l => g (pos b l))]
  refine (Fintype.sum_equiv finProdFinEquiv _ _ fun p => ?_).symm
  congr 1
  apply Fin.ext
  simp only [finProdFinEquiv_apply_val, pos]
  ring

end Cert.TileSum
-- ==== Proof.SlabSum.lean ====
/-
  One long sum taken in two halves of ten slabs each.

  A sum over 100000 consecutive positions is cut into 20 slabs of 5000 positions; slab `n` covers the positions
  `5000 n … 5000 n + 4999`.  The first ten slabs are added, one after the other, onto a zero; so are the last ten, onto
  another zero; and the two results are added.  Only commutativity and associativity of the addition and `0 + a = a` are
  used, so the statement holds in every additive commutative monoid — the extended reals, infinities included, are one.
-/
import proofs.«164869_g52544629899401_cont_sun_c4_509_25_alg».proof.Proof.LibTileSum
import Mathlib.Algebra.BigOperators.Intervals

namespace Cert.SlabSum

variable {β : Type*} [AddCommMonoid β]

/-- Position `l` of slab `n`. -/
def at_ (n : ℕ) (hn : n < 20) (l : Fin 5000) : Fin 100000 := ⟨n * 5000 + l.val, by have := l.isLt; omega⟩

/-- If `M n` is the sum of the terms of slab `n` (for each of the 20 slabs), then the two halves' running sums, each
    started from a zero `z`, add up to the sum of all 100000 terms. -/
theorem halves (T : Fin 100000 → β) (M : ℕ → β) (z : β) (hz : z = 0)
    (hM : ∀ (n : ℕ) (hn : n < 20), M n = ∑ l : Fin 5000, T (at_ n hn l)) :
    (z + ∑ s ∈ Finset.range 10, M (10 * 0 + s)) + (z + ∑ s ∈ Finset.range 10, M (10 * 1 + s)) = ∑ k, T k := by
  subst hz
  have tiles : ∑ k, T k = ∑ b : Fin 20, M b.val := by
    refine (Cert.TileSum.sum_tiles (Q := 20) (w := 5000) T).trans (Finset.sum_congr rfl fun b _ => ?_)
    rw [hM b.val b.isLt]
    rfl
  rw [tiles, ← Finset.sum_range (fun n => M n), show (20 : ℕ) = 10 + 10 from rfl, Finset.sum_range_add, zero_add, zero_add]
  simp only [Nat.mul_zero, Nat.mul_one, Nat.zero_add]

end Cert.SlabSum
-- ==== Proof.Region0.lean ====
/-
  The first region: two halves of ten slab products each, accumulated into a [2,1024,64] array of partial sums.

  The grid has 20 points; point t = 10 c + i handles slab t of the contraction range (rows 5000 t … 5000 t + 4999 of the
  transposed left factor and of the right factor) and works on block c of the output.  The block is reset at i = 0, takes one
  slab product per point, and is written back at i = 9.  So after the region, entry (c, p, q) of the output array is
  0 + Σ_{s<10} Σ_{l<5000} left (5000 (10 c + s) + l, p) · right (5000 (10 c + s) + l, q).
-/
import proofs.«164869_g52544629899401_cont_sun_c4_509_25_alg».proof.Proof.Body0
import proofs.«164869_g52544629899401_cont_sun_c4_509_25_alg».proof.Proof.SlabSum

noncomputable section

open Idealize.ShloMosaic Idealize.ShloMosaic.TcCoe Idealize.SL.Sem
open Idealize.ShloMosaic.ValueIdx
open Idealize.ShloMosaic.Pipeline (Dat)

namespace Cert.KernelIdeal.Region0

open Cert.KernelIdeal Cert.KernelIdeal.Gen Cert.KernelIdeal.Body0

/-- The sum of slab `n`'s 5000 products at entry (p, q), from the two whole factor arrays; zero past the 20 slabs. -/
def slabSum (lt : S100000x1024.Idx → EReal) (rt : S100000x64.Idx → EReal) (p : Fin 1024) (q : Fin 64) (n : ℕ) : EReal :=
  if h : n < 20 then ∑ l : Fin 5000, lt (ix2 (Cert.SlabSum.at_ n h l) p) * rt (ix2 (Cert.SlabSum.at_ n h l) q) else 0

/-- The array of partial sums the region leaves: half `c`'s ten slabs added onto a zero. -/
def partials (lt : S100000x1024.Idx → EReal) (rt : S100000x64.Idx → EReal) : S2x1024x64.Idx → EReal := fun i =>
  Ideal.ofBits .f32 0x00000000#32 + ∑ s ∈ Finset.range 10, slabSum lt rt (i 1) (i 2) (10 * (i 0).val + s)

variable (V : (c : Dev nD) → (b : Ref sig .tc) → Buf (Elt Ideal) ((c : Thread nD τ).loc b))

/-- The printed index maps over the grid: point `t` reads slab `t` of both factors and works on output block `t / 10`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 10 ∧ win0_2.index t (1 : Fin 3) = 0 ∧ win0_2.index t (2 : Fin 3) = 0 :=
  (by decide +kernel : ∀ t : Fin grid0.N, _)

/-- Row `l` of point `t`'s left slab is row `5000 t + l` of the transposed left factor. -/
theorem left_block (c : Dev nD) (t : Fin cfg0.N) (ht : t.val < 20) (l : Fin 5000) (p : Fin 1024) :
    iblk0 V c 0 t (ix2 l p) = (V c main_call0_v0 : S100000x1024.Idx → EReal) (ix2 (Cert.SlabSum.at_ t.val ht l) p) := by
  obtain ⟨e0, e1, -⟩ := index_facts t
  show (V c main_call0_v0 : S100000x1024.Idx → EReal) (((cfg0.win 0).blk t).view.emb (ix2 l p)) = _
  refine congrArg _ (funext fun a => Fin.ext ?_)
  match a with
  | ⟨0, _⟩ => show win0_0.index t (0 : Fin 2) * 5000 + 1 * l.val = t.val * 5000 + l.val; rw [e0]; omega
  | ⟨1, _⟩ => show win0_0.index t (1 : Fin 2) * 1024 + 1 * p.val = p.val; rw [e1]; omega

/-- Row `l` of point `t`'s right slab is row `5000 t + l` of the right factor. -/
theorem right_block (c : Dev nD) (t : Fin cfg0.N) (ht : t.val < 20) (l : Fin 5000) (q : Fin 64) :
    iblk0 V c 1 t (ix2 l q) = (V c main_call0_v1 : S100000x64.Idx → EReal) (ix2 (Cert.SlabSum.at_ t.val ht l) q) := by
  obtain ⟨-, -, e0, e1, -⟩ := index_facts t
  show (V c main_call0_v1 : S100000x64.Idx → EReal) (((cfg0.win 1).blk t).view.emb (ix2 l q)) = _
  refine congrArg _ (funext fun a => Fin.ext ?_)
  match a with
  | ⟨0, _⟩ => show win0_1.index t (0 : Fin 2) * 5000 + 1 * l.val = t.val * 5000 + l.val; rw [e0]; omega
  | ⟨1, _⟩ => show win0_1.index t (1 : Fin 2) * 64 + 1 * q.val = q.val; rw [e1]; omega

/-- One point's accumulate at an entry: the old entry plus slab `t`'s sum. -/
theorem point_apply (c : Dev nD) (t : Fin cfg0.N) (acc : Vec Ideal S1x1024x64 .f32) (u : Fin 1) (p : Fin 1024) (q : Fin 64) :
    k0_pay2 (F := Ideal) acc (iblk0 V c 0 t) (iblk0 V c 1 t) (ix3 u p q)
      = acc (ix3 u p q) + slabSum (V c main_call0_v0) (V c main_call0_v1) p q t.val := by
  have ht : t.val < 20 := lt_of_lt_of_eq t.isLt N_0
  refine (accumulate_apply acc (iblk0 V c 0 t) (iblk0 V c 1 t) u p q).trans (congrArg (acc (ix3 u p q) + ·) ?_)
  unfold slabSum
  rw [dif_pos ht]
  exact Finset.sum_congr rfl fun l _ => by rw [left_block V c t ht l p, right_block V c t ht l q]

/-- The block carried in the staging buffer after point `t`, entry by entry: zero plus the sums of the slabs of `t`'s half
    up to `t` — the accumulator is reset at the multiples of 10 and takes one slab per point. -/
theorem carried_apply (c : Dev nD) (t : Fin cfg0.N) (u : Fin 1) (p : Fin 1024) (q : Fin 64) :
    outsAt0 V c t.val t.isLt (ix3 u p q)
      = Ideal.ofBits .f32 0x00000000#32
        + ∑ s ∈ Finset.range (t.val % 10 + 1), slabSum (V c main_call0_v0) (V c main_call0_v1) p q (10 * (t.val / 10) + s) := by
  have h' : 10 * (t.val / 10) + t.val % 10 < cfg0.N := by rw [Nat.div_add_mod]; exact t.isLt
  have hfold := Pipeline.eq_accAt_of_mod (outsAt0 V c) 10
    (fun n h => k0_pay2 (F := Ideal) (k0_pay1 (F := Ideal)) (iblk0 V c 0 ⟨n, h⟩) (iblk0 V c 1 ⟨n, h⟩))
    (fun n h acc => k0_pay2 (F := Ideal) acc (iblk0 V c 0 ⟨n, h⟩) (iblk0 V c 1 ⟨n, h⟩))
    (fun n h hm => (outsAt0_A V c ⟨n, h⟩ hm).trans
      (first_point c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        ((hcond0_0 ⟨n, h⟩).mpr hm) (iblk0 V c 0 ⟨n, h⟩) (iblk0 V c 1 ⟨n, h⟩)))
    (fun n h hm => (outsAt0_B V c ⟨n + 1, h⟩ hm).trans
      (later_point c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => hm ((hcond0_0 ⟨n + 1, h⟩).mp hh))
        (iblk0 V c 0 ⟨n + 1, h⟩) (iblk0 V c 1 ⟨n + 1, h⟩) (outsAt0 V c n (Nat.lt_of_succ_lt h))))
    (by decide) t.val t.isLt h'
  rw [hfold]
  exact Pipeline.accAt_add_apply (ι := S1x1024x64.Idx) (β := EReal) _ _
    (fun _ => Ideal.ofBits .f32 0x00000000#32)
    (fun n y => slabSum (V c main_call0_v0) (V c main_call0_v1) (y 1) (y 2) n) (10 * (t.val / 10)) 9
    (fun h y => by
      obtain ⟨u', p', q', rfl⟩ : ∃ (u' : Fin 1) (p' : Fin 1024) (q' : Fin 64), y = ix3 u' p' q' := ⟨y 0, y 1, y 2, eq_ix3 y⟩
      exact point_apply V c ⟨10 * (t.val / 10), h⟩ _ u' p' q')
    (fun n h acc y _ _ => by
      obtain ⟨u', p', q', rfl⟩ : ∃ (u' : Fin 1) (p' : Fin 1024) (q' : Fin 64), y = ix3 u' p' q' := ⟨y 0, y 1, y 2, eq_ix3 y⟩
      exact point_apply V c ⟨n, h⟩ acc u' p' q')
    (t.val % 10) (by omega) h' (ix3 u p q)

/-- The partial-sum array at an index whose coordinates are known. -/
theorem partials_of (lt : S100000x1024.Idx → EReal) (rt : S100000x64.Idx → EReal) (i : S2x1024x64.Idx) (p : Fin 1024) (q : Fin 64)
    (b : ℕ) (h0 : (i 0).val = b) (h1 : (i 1).val = p.val) (h2 : (i 2).val = q.val) :
    partials lt rt i
      = Ideal.ofBits .f32 0x00000000#32 + ∑ s ∈ Finset.range 10, slabSum lt rt p q (10 * b + s) := by
  have e1 : (i 1 : Fin 1024) = p := Fin.ext h1
  have e2 : (i 2 : Fin 64) = q := Fin.ext h2
  unfold partials
  rw [h0, e1, e2]

/-- What a point that writes back (the last of its half) writes: its block of the partial-sum array. -/
theorem flushed_eq (c : Dev nD) (t : Fin cfg0.N) (hf : (cfg0.win 2).flush t = true) :
    (dat0 V c).flushed 2 t
      = ((cfg0.win 2).blk t).view.read (Elt Ideal) (partials (V c main_call0_v0) (V c main_call0_v1)) := by
  have h9 : t.val % 10 = 9 := (flush0_2 t).mp hf
  obtain ⟨-, -, -, -, e0, e1, e2⟩ := index_facts t
  show (cfg0.win 2).cut (grid0.coords t) ((dat0 V c).after 2 t) = _
  rw [after0_2]
  funext j
  have hj0 : (j 0).val < 1 := (j 0).isLt
  have hj1 : (j 1).val < 1024 := (j 1).isLt
  have hj2 : (j 2).val < 64 := (j 2).isLt
  have ej : (j : S1x1024x64.Idx) = ix3 (⟨(j 0).val, hj0⟩ : Fin 1) (⟨(j 1).val, hj1⟩ : Fin 1024) (⟨(j 2).val, hj2⟩ : Fin 64) :=
    funext fun a => Fin.ext (by match a with | ⟨0, _⟩ => rfl | ⟨1, _⟩ => rfl | ⟨2, _⟩ => rfl)
  show outsAt0 V c t.val t.isLt j = partials _ _ (((cfg0.win 2).blk t).view.emb j)
  refine (congrArg (outsAt0 V c t.val t.isLt) ej).trans ?_
  rw [carried_apply V c t, h9]
  refine (partials_of _ _ _ ⟨(j 1).val, hj1⟩ ⟨(j 2).val, hj2⟩ (t.val / 10) ?_ ?_ ?_).symm
  · show win0_2.index t (0 : Fin 3) * 1 + 1 * (j 0).val = t.val / 10; rw [e0]; omega
  · show win0_2.index t (1 : Fin 3) * 1024 + 1 * (j 1).val = (j 1).val; rw [e1]; omega
  · show win0_2.index t (2 : Fin 3) * 64 + 1 * (j 2).val = (j 2).val; rw [e2]; omega

/-- An index of the output array is in point `t`'s block iff each coordinate is in the block's range on its axis. -/
theorem mem_block (t : Fin cfg0.N) (i : S2x1024x64.Idx) :
    i ∈ ((cfg0.win 2).blk t).view.set
      ↔ ∀ a : Fin 3, win0_2.index t a * S1x1024x64.size a ≤ (i a).val ∧ (i a).val < win0_2.index t a * S1x1024x64.size a + S1x1024x64.size a := by
  show i ∈ ((View.whole main_call0_v2).slice (win0_2.rect t)).set ↔ _
  rw [View.set_slice_whole, Rect.mem_set_unit]
  exact Iff.rfl

/-- Every index of the output array is in the block of the last point of its half. -/
theorem covered (i : S2x1024x64.Idx) : ∃ t : Fin cfg0.N, (cfg0.win 2).flush t = true ∧ i ∈ ((cfg0.win 2).blk t).view.set := by
  have hi0 : (i 0).val < 2 := (i 0).isLt
  have hi1 : (i 1).val < 1024 := (i 1).isLt
  have hi2 : (i 2).val < 64 := (i 2).isLt
  have hN : cfg0.N = 20 := N_0
  let t : Fin cfg0.N := ⟨10 * (i 0).val + 9, by omega⟩
  have htv : t.val = 10 * (i 0).val + 9 := rfl
  obtain ⟨-, -, -, -, e0, e1, e2⟩ := index_facts t
  refine ⟨t, (flush0_2 t).mpr (by omega), ?_⟩
  rw [mem_block]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1024 ≤ (i 1).val ∧ (i 1).val < win0_2.index t (1 : Fin 3) * 1024 + 1024; rw [e1]; omega
  | ⟨2, _⟩ => show win0_2.index t (2 : Fin 3) * 64 ≤ (i 2).val ∧ (i 2).val < win0_2.index t (2 : Fin 3) * 64 + 64; rw [e2]; omega

/-- THE REGION'S RESULT: after its write-backs the output array is the array of partial sums of the two factors as the
    region found them. -/
theorem array_eq (c : Dev nD) :
    (dat0 V c).arrAt 2 cfg0.N = partials (V c main_call0_v0) (V c main_call0_v1) :=
  (dat0 V c).arrAt_eq_of_cover 2 (partials (V c main_call0_v0) (V c main_call0_v1)) (fun t hf => flushed_eq V c t hf) covered

end Cert.KernelIdeal.Region0

end
-- ==== Proof.Region1.lean ====
/-
  The second region: the two halves added.  It has no grid — one point, each window's block its whole array — and its body
  loads block 0 and block 1 of the [2,1024,64] array of partial sums, adds them entry by entry, and stores the [1024,64]
  result: entry (p, q) is partial (0, p, q) + partial (1, p, q).
-/
import proofs.«164869_g52544629899401_cont_sun_c4_509_25_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open Idealize.ShloMosaic.Pipeline (Dat)

namespace Cert.KernelIdeal.Region1

open Cert.KernelIdeal Cert.KernelIdeal.Gen

/-- Entry (p, q) of the sum of the two halves of a [2,1024,64] array. -/
def halvesSum (x : S2x1024x64.Idx → EReal) : S1024x64.Idx → EReal := fun i =>
  x (ix3 (0 : Fin 2) (i 0) (i 1)) + x (ix3 (1 : Fin 2) (i 0) (i 1))

theorem halvesSum_of (x : S2x1024x64.Idx → EReal) (i : S1024x64.Idx) (p : Fin 1024) (q : Fin 64)
    (h0 : (i 0).val = p.val) (h1 : (i 1).val = q.val) :
    halvesSum x i = x (ix3 (0 : Fin 2) p q) + x (ix3 (1 : Fin 2) p q) := by
  have e0 : (i 0 : Fin 1024) = p := Fin.ext h0
  have e1 : (i 1 : Fin 64) = q := Fin.ext h1
  unfold halvesSum
  rw [e0, e1]

theorem off2 : (![0, 0] : Fin 2 → Nat) = fun _ => 0 := funext fun a => by fin_cases a <;> rfl

/-- What the body leaves in the output's staging buffer, at entry (p, q): the two blocks' entries added. -/
theorem body_apply (x0 : Vec Ideal S2x1024x64 .f32) (p : Fin 1024) (q : Fin 64) :
    out1_1 (F := Ideal) x0 (ix2 p q) = x0 (ix3 (0 : Fin 2) p q) + x0 (ix3 (1 : Fin 2) p q) := by
  unfold out1_1
  rw [View.canon_unit_zero off2]
  unfold k1_pay1
  rw [addf_apply]
  refine congrArg₂ (· + ·) ?_ ?_
  · refine (shapeCast_dropUnit_apply ![1024, 64] _ shapeCasts_S1x1024x64_S1024x64 (ix2 p q)).trans ?_
    show x0 (r1_0.idx (Fin.cons ⟨0, Nat.one_pos⟩ (ix2 p q))) = _
    refine congrArg x0 (funext fun a => Fin.ext ?_)
    match a with
    | ⟨0, _⟩ => rfl
    | ⟨1, _⟩ => show 0 + 1 * p.val = p.val; omega
    | ⟨2, _⟩ => show 0 + 1 * q.val = q.val; omega
  · refine (shapeCast_dropUnit_apply ![1024, 64] _ shapeCasts_S1x1024x64_S1024x64 (ix2 p q)).trans ?_
    show x0 (r1_1.idx (Fin.cons ⟨0, Nat.one_pos⟩ (ix2 p q))) = _
    refine congrArg x0 (funext fun a => Fin.ext ?_)
    match a with
    | ⟨0, _⟩ => rfl
    | ⟨1, _⟩ => show 0 + 1 * p.val = p.val; omega
    | ⟨2, _⟩ => show 0 + 1 * q.val = q.val; omega

variable (V : (c : Dev nD) → (b : Ref sig .tc) → Buf (Elt Ideal) ((c : Thread nD τ).loc b))

/-- The one point's block indices are all zero: each window's block is its whole array. -/
theorem index_facts : ∀ t : Fin cfg1.N, win1_0.index t (0 : Fin 3) = 0 ∧ win1_0.index t (1 : Fin 3) = 0 ∧ win1_0.index t (2 : Fin 3) = 0
    ∧ win1_1.index t (0 : Fin 2) = 0 ∧ win1_1.index t (1 : Fin 2) = 0 :=
  (by decide +kernel : ∀ t : Fin grid1.N, _)

/-- The input block is the whole array of partial sums as the region finds it. -/
theorem input_block (c : Dev nD) (t : Fin cfg1.N) (u : Fin 2) (p : Fin 1024) (q : Fin 64) :
    iblk1 V c 0 t (ix3 u p q) = (V c main_call0_v2 : S2x1024x64.Idx → EReal) (ix3 u p q) := by
  obtain ⟨e0, e1, e2, -⟩ := index_facts t
  show (V c main_call0_v2 : S2x1024x64.Idx → EReal) (((cfg1.win 0).blk t).view.emb (ix3 u p q)) = _
  refine congrArg _ (funext fun a => Fin.ext ?_)
  match a with
  | ⟨0, _⟩ => show win1_0.index t (0 : Fin 3) * 2 + 1 * u.val = u.val; rw [e0]; omega
  | ⟨1, _⟩ => show win1_0.index t (1 : Fin 3) * 1024 + 1 * p.val = p.val; rw [e1]; omega
  | ⟨2, _⟩ => show win1_0.index t (2 : Fin 3) * 64 + 1 * q.val = q.val; rw [e2]; omega

/-- What the point writes back: the whole block of the two halves' sum. -/
theorem flushed_eq (c : Dev nD) (t : Fin cfg1.N) :
    (dat1 V c).flushed 1 t = ((cfg1.win 1).blk t).view.read (Elt Ideal) (halvesSum (V c main_call0_v2)) := by
  obtain ⟨-, -, -, e0, e1⟩ := index_facts t
  show (cfg1.win 1).cut (grid1.coords t) ((dat1 V c).after 1 t) = _
  rw [after1_1]
  funext j
  have hj0 : (j 0).val < 1024 := (j 0).isLt
  have hj1 : (j 1).val < 64 := (j 1).isLt
  have ej : (j : S1024x64.Idx) = ix2 (⟨(j 0).val, hj0⟩ : Fin 1024) (⟨(j 1).val, hj1⟩ : Fin 64) :=
    funext fun a => Fin.ext (by match a with | ⟨0, _⟩ => rfl | ⟨1, _⟩ => rfl)
  show out1_1 (F := Ideal) (iblk1 V c 0 t) j = halvesSum _ (((cfg1.win 1).blk t).view.emb j)
  refine (congrArg (out1_1 (F := Ideal) (iblk1 V c 0 t)) ej).trans ?_
  refine (body_apply (iblk1 V c 0 t) _ _).trans ?_
  rw [input_block V c t, input_block V c t]
  refine (halvesSum_of _ _ ⟨(j 0).val, hj0⟩ ⟨(j 1).val, hj1⟩ ?_ ?_).symm
  · show win1_1.index t (0 : Fin 2) * 1024 + 1 * (j 0).val = (j 0).val; rw [e0]; omega
  · show win1_1.index t (1 : Fin 2) * 64 + 1 * (j 1).val = (j 1).val; rw [e1]; omega

/-- Every index of the result array is in the one point's block. -/
theorem covered (i : S1024x64.Idx) : ∃ t : Fin cfg1.N, (cfg1.win 1).flush t = true ∧ i ∈ ((cfg1.win 1).blk t).view.set := by
  have hi0 : (i 0).val < 1024 := (i 0).isLt
  have hi1 : (i 1).val < 64 := (i 1).isLt
  obtain ⟨-, -, -, e0, e1⟩ := index_facts t1_0
  refine ⟨t1_0, flush1_1 t1_0, ?_⟩
  show i ∈ ((View.whole main_v0).slice (win1_1.rect t1_0)).set
  rw [View.set_slice_whole, Rect.mem_set_unit]
  intro a
  match a with
  | ⟨0, _⟩ => show win1_1.index t1_0 (0 : Fin 2) * 1024 ≤ (i 0).val ∧ (i 0).val < win1_1.index t1_0 (0 : Fin 2) * 1024 + 1024; rw [e0]; omega
  | ⟨1, _⟩ => show win1_1.index t1_0 (1 : Fin 2) * 64 ≤ (i 1).val ∧ (i 1).val < win1_1.index t1_0 (1 : Fin 2) * 64 + 64; rw [e1]; omega

/-- THE REGION'S RESULT: the result array ends at the sum of the two halves of the partial sums it found. -/
theorem array_eq (c : Dev nD) : (dat1 V c).arrAt 1 cfg1.N = halvesSum (V c main_call0_v2) :=
  (dat1 V c).arrAt_eq_of_cover 1 (halvesSum (V c main_call0_v2)) (fun t _ => flushed_eq V c t) covered

end Cert.KernelIdeal.Region1

end
-- ==== Proof.HostPre.lean ====
/-
  What the first region finds in its two input arrays: the host lines before it transpose the left argument
  ([1024,100000] to [100000,1024]) and narrow the right argument to bf16.  Over the extended reals a change of float format
  is the identity, so entry (k, p) of the first array is x (p, k) and entry (k, q) of the second is w (k, q).
-/
import proofs.«164869_g52544629899401_cont_sun_c4_509_25_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.ValueIdx

namespace Cert.KernelIdeal.HostPre

open Cert.KernelIdeal Cert.KernelIdeal.Gen

section AnyInstance
variable {F : FTy → Type} [FloatOps F]
variable (m : (ℓ : Loc nD τ sig) → Buf (Elt F) ℓ) (ρ : Dev nD → PrngReg)

/-- The first input array at the region's entry is the transposed left argument. -/
theorem left_entry (c : Dev nD) : (V1 m ρ c main_call0_v0 : S100000x1024.Idx → Elt F .f32)
    = transpose S100000x1024 [1, 0] (m ((c.tc : Thread nD τ).loc main_arg0)) transposes_S1024x100000_S100000x1024_1_0 := by
  show StableHlo.after hostOps0 (W0 m ρ c) (Proc.devRef .tc main_call0_v0) = _
  after_results
  rfl

/-- The second input array at the region's entry is the right argument narrowed to bf16. -/
theorem right_entry (c : Dev nD) : (V1 m ρ c main_call0_v1 : S100000x64.Idx → Elt F .bf16)
    = truncf .bf16 (m ((c.tc : Thread nD τ).loc main_arg1)) bitsLt_bf16_f32 := by
  show StableHlo.after hostOps0 (W0 m ρ c) (Proc.devRef .tc main_call0_v1) = _
  after_results
  rfl

end AnyInstance

variable (m : (ℓ : Loc nD τ sig) → Buf (Elt Ideal) ℓ) (ρ : Dev nD → PrngReg)

/-- Entry (k, p) of the transposed left argument is x (p, k). -/
theorem left_apply (c : Dev nD) (k : Fin 100000) (p : Fin 1024) :
    (V1 m ρ c main_call0_v0 : S100000x1024.Idx → EReal) (ix2 k p)
      = (m ((c.tc : Thread nD τ).loc main_arg0) : S1024x100000.Idx → EReal) (ix2 p k) := by
  rw [left_entry m ρ c]
  exact transpose_apply [1, 0] _ transposes_S1024x100000_S100000x1024_1_0 (ix2 k p) (ix2 p k)
    (fun b => by match b with | ⟨0, _⟩ => rfl | ⟨1, _⟩ => rfl)

/-- Entry (k, q) of the narrowed right argument is w (k, q). -/
theorem right_apply (c : Dev nD) (k : Fin 100000) (q : Fin 64) :
    (V1 m ρ c main_call0_v1 : S100000x64.Idx → EReal) (ix2 k q)
      = (m ((c.tc : Thread nD τ).loc main_arg1) : S100000x64.Idx → EReal) (ix2 k q) := by
  rw [right_entry m ρ c]
  rfl

end Cert.KernelIdeal.HostPre

end
-- ==== Proof.Spec.lean ====
/-
  The result both programs compute: the product of a [1024,100000] matrix and a [100000,64] matrix over the extended
  reals, entry (p, q) being the sum over the 100000 contraction positions k of x (p, k) · w (k, q).
-/
import Idealize.ShloMosaic.Lib.ValueIdx

noncomputable section

open Idealize.ShloMosaic Idealize.ShloMosaic.ValueIdx

namespace Cert.Spec

/-- Entry by entry, the product of `x` and `w`. -/
def matProduct (x : (⟨2, ![1024, 100000]⟩ : Shape).Idx → EReal) (w : (⟨2, ![100000, 64]⟩ : Shape).Idx → EReal) :
    (⟨2, ![1024, 64]⟩ : Shape).Idx → EReal := fun i =>
  ∑ k : Fin 100000, x (ix2 (i 0) k) * w (ix2 k (i 1))

theorem matProduct_of (x : (⟨2, ![1024, 100000]⟩ : Shape).Idx → EReal) (w : (⟨2, ![100000, 64]⟩ : Shape).Idx → EReal)
    (i : (⟨2, ![1024, 64]⟩ : Shape).Idx) (p : Fin 1024) (q : Fin 64) (h0 : (i 0).val = p.val) (h1 : (i 1).val = q.val) :
    matProduct x w i = ∑ k : Fin 100000, x (ix2 p k) * w (ix2 k q) := by
  have e0 : (i 0 : Fin 1024) = p := Fin.ext h0
  have e1 : (i 1 : Fin 64) = q := Fin.ext h1
  unfold matProduct
  rw [e0, e1]

end Cert.Spec

end
-- ==== Proof.KernelValue.lean ====
/-
  The idealized kernel's result is the whole matrix product.

  The result buffer at the last boundary is what the second region wrote: the sum of the two halves of the array of
  partial sums; that array is what the first region wrote: per half, zero plus its ten slab sums, over the transposed left
  argument and the right argument.  Ten slabs and ten slabs of 5000 positions are the 100000 contraction positions, each
  once, so by commutativity and associativity of the addition of extended reals (no finiteness is needed) entry (p, q) is
  the sum over all k of x (p, k) · w (k, q).
-/
import proofs.«164869_g52544629899401_cont_sun_c4_509_25_alg».proof.Proof.KernelRun
import proofs.«164869_g52544629899401_cont_sun_c4_509_25_alg».proof.Proof.Region0
import proofs.«164869_g52544629899401_cont_sun_c4_509_25_alg».proof.Proof.Region1
import proofs.«164869_g52544629899401_cont_sun_c4_509_25_alg».proof.Proof.HostPre
import proofs.«164869_g52544629899401_cont_sun_c4_509_25_alg».proof.Proof.Spec
import proofs.«164869_g52544629899401_cont_sun_c4_509_25_alg».proof.Proof.SlabSum

noncomputable section

open Idealize.ShloMosaic Idealize.ShloMosaic.TcCoe Idealize.SL.Sem
open Idealize.ShloMosaic.ValueIdx

namespace Cert.KernelIdeal.Result

open Cert.KernelIdeal Cert.KernelIdeal.Gen

variable (m : (ℓ : Loc nD τ sig) → Buf (Elt Ideal) ℓ) (ρ : Dev nD → PrngReg)

/-- The array of partial sums the second region finds is the one the first region left. -/
theorem partials_found (c : Dev nD) : (V2 m ρ c main_call0_v2 : S2x1024x64.Idx → EReal)
    = Cert.KernelIdeal.Region0.partials (V1 m ρ c main_call0_v0) (V1 m ρ c main_call0_v1) :=
  (W2_arr m ρ c 2).trans (Cert.KernelIdeal.Region0.array_eq (V1 m ρ) c)

/-- The result buffer at the last boundary is the sum of the two halves of that array. -/
theorem result_found (c : Dev nD) : (W3 m ρ c (Proc.devRef .tc main_v0) : S1024x64.Idx → EReal)
    = Cert.KernelIdeal.Region1.halvesSum (V2 m ρ c main_call0_v2) :=
  (W3_arr m ρ c 1).trans (Cert.KernelIdeal.Region1.array_eq (V2 m ρ) c)

/-- THE LAW that joins the two sides, over any arrays: if `lt` is the transpose of `x` and `rt` is `w`, the sum of the two
    halves of the partial sums of `lt` and `rt` is the product of `x` and `w` — twenty slabs of 5000 positions are the
    100000 positions, each once. -/
theorem halves_of_partials (lt : S100000x1024.Idx → EReal) (rt : S100000x64.Idx → EReal)
    (x : S1024x100000.Idx → EReal) (w : S100000x64.Idx → EReal)
    (hl : ∀ (k : Fin 100000) (p : Fin 1024), lt (ix2 k p) = x (ix2 p k))
    (hr : ∀ (k : Fin 100000) (q : Fin 64), rt (ix2 k q) = w (ix2 k q)) :
    Cert.KernelIdeal.Region1.halvesSum (Cert.KernelIdeal.Region0.partials lt rt) = Cert.Spec.matProduct x w := by
  funext i
  have hi0 : (i 0).val < 1024 := (i 0).isLt
  have hi1 : (i 1).val < 64 := (i 1).isLt
  rw [Cert.KernelIdeal.Region1.halvesSum_of _ i ⟨(i 0).val, hi0⟩ ⟨(i 1).val, hi1⟩ rfl rfl,
    Cert.Spec.matProduct_of _ _ i ⟨(i 0).val, hi0⟩ ⟨(i 1).val, hi1⟩ rfl rfl,
    Cert.KernelIdeal.Region0.partials_of _ _ (ix3 (0 : Fin 2) _ _) ⟨(i 0).val, hi0⟩ ⟨(i 1).val, hi1⟩ 0 rfl rfl rfl,
    Cert.KernelIdeal.Region0.partials_of _ _ (ix3 (1 : Fin 2) _ _) ⟨(i 0).val, hi0⟩ ⟨(i 1).val, hi1⟩ 1 rfl rfl rfl]
  refine (Cert.SlabSum.halves
    (fun k => lt (ix2 k ⟨(i 0).val, hi0⟩) * rt (ix2 k ⟨(i 1).val, hi1⟩))
    (Cert.KernelIdeal.Region0.slabSum lt rt ⟨(i 0).val, hi0⟩ ⟨(i 1).val, hi1⟩)
    _ Ideal.ofBits_zero_f32 (fun n hn => by unfold Cert.KernelIdeal.Region0.slabSum; rw [dif_pos hn])).trans ?_
  exact Finset.sum_congr rfl fun k _ => by rw [hl, hr]

/-- So it is the product of the two arguments. -/
theorem result_eq (c : Dev nD) : (W3 m ρ c (Proc.devRef .tc main_v0) : S1024x64.Idx → EReal)
    = Cert.Spec.matProduct (m ((c.tc : Thread nD τ).loc main_arg0)) (m ((c.tc : Thread nD τ).loc main_arg1)) := by
  rw [result_found, partials_found]
  exact halves_of_partials _ _ _ _ (Cert.KernelIdeal.HostPre.left_apply m ρ c) (Cert.KernelIdeal.HostPre.right_apply m ρ c)

/-- The run: every weakly fair execution terminates with the result buffer at the product of the arguments' launch
    contents and the arguments unchanged. -/
theorem run : θ_run defs (onTc (τ := τ) (main (F := Ideal))) ⟨m, fun _ => 0, ρ⟩ (fun r => ∀ c : Dev nD,
      r.2.mem ((c.tc : Thread nD τ).loc main_v0)
        = Cert.Spec.matProduct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩)
    (Cert.KernelIdeal.RunValue.run_result m ρ)

end Cert.KernelIdeal.Result

end
-- ==== Proof.RefValue.lean ====
/-
  The reference: one whole matrix product on the host.  Read at an entry over the extended reals it is the sum over the
  contraction position of the products — the specification's function of the two arguments.
-/
import proofs.«164869_g52544629899401_cont_sun_c4_509_25_alg».proof.Proof.Gen.ReferenceIdeal.Read
import proofs.«164869_g52544629899401_cont_sun_c4_509_25_alg».proof.Proof.Gen.ReferenceIdeal.Run
import proofs.«164869_g52544629899401_cont_sun_c4_509_25_alg».proof.Proof.Spec

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen

/-- The host's `dot_general` of the two arguments is their product, entry by entry. -/
theorem product_eq (x : FVec Ideal S1024x100000 .f32) (w : FVec Ideal S100000x64 .f32) :
    Host.dotGeneral (F := Ideal) dot_S1024x100000_S100000x64_S1024x64_1_0_0_1_n_n none x w = Cert.Spec.matProduct x w := by
  rw [Cert.ReferenceIdeal.Read.val_main_v0_eq]
  funext i
  rw [Cert.ReferenceIdeal.Read.val_main_v0_apply]
  unfold Cert.Spec.matProduct
  refine Finset.sum_congr rfl fun k _ => ?_
  have el : Cert.ReferenceIdeal.Read.lidx_main_v0 i k = ix2 (i 0) k :=
    funext fun a => Fin.ext (by match a with | ⟨0, _⟩ => rfl | ⟨1, _⟩ => rfl)
  have er : Cert.ReferenceIdeal.Read.ridx_main_v0 i k = ix2 k (i 1) :=
    funext fun a => Fin.ext (by match a with | ⟨0, _⟩ => rfl | ⟨1, _⟩ => rfl)
  rw [el, er]
  rfl

end Cert.ReferenceIdeal.RefValue

end
-- ==== Proof.lean ====
/-
  A [1024,100000] by [100000,64] matrix product computed in slabs, against one whole product.

  The kernel transposes the left argument and narrows the right one to bf16 on the host, then runs two regions.  The first
  walks 20 slabs of 5000 contraction positions on a 2 × 10 grid: half c accumulates, from zero, the ten products
  (slab of xᵀ)ᵀ · (slab of w) of its slabs into block c of a [2,1024,64] array of partial sums.  The second adds the two
  blocks.  The reference is jnp's single matmul.  Over the extended reals a change of float format is the identity and a
  product into a zero accumulator is a plain sum, so entry (p, q) of the kernel's result is
  (0 + Σ_{s<10} Σ_{l<5000} x (p, 5000 s + l) w (5000 s + l, q)) + (0 + Σ_{s<10} Σ_{l<5000} x (p, 5000 (10 + s) + l) w (5000 (10 + s) + l, q)),
  and the reference's is Σ_{k<100000} x (p, k) w (k, q): the same 100000 terms, regrouped.  Addition of extended reals is
  commutative and associative and 0 + a = a, infinities included, so the two agree for every input; the precondition is
  not used.  The ideal pass rewrote nothing, so the kernel's idealization is its own text.
-/
import proofs.«164869_g52544629899401_cont_sun_c4_509_25_alg».proof.Defs
import proofs.«164869_g52544629899401_cont_sun_c4_509_25_alg».proof.Proof.Gen.Kernel
import proofs.«164869_g52544629899401_cont_sun_c4_509_25_alg».proof.Proof.Gen.Kernel.Frame
import proofs.«164869_g52544629899401_cont_sun_c4_509_25_alg».proof.Proof.Gen.KernelIdeal
import proofs.«164869_g52544629899401_cont_sun_c4_509_25_alg».proof.Proof.Gen.KernelIdeal.Frame
import proofs.«164869_g52544629899401_cont_sun_c4_509_25_alg».proof.Proof.Gen.ReferenceIdeal
import proofs.«164869_g52544629899401_cont_sun_c4_509_25_alg».proof.Proof.Gen.ReferenceIdeal.Run
import proofs.«164869_g52544629899401_cont_sun_c4_509_25_alg».proof.Proof.Gen.Pre_finite_inputs
import proofs.«164869_g52544629899401_cont_sun_c4_509_25_alg».proof.Proof.KernelValue
import proofs.«164869_g52544629899401_cont_sun_c4_509_25_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the product of the arguments in their result
    buffers: the kernel's run read through its two regions, the reference's run read at an entry. -/
theorem algebraic : Cert.algebraic_KernelIdeal_ReferenceIdeal := by
  intro m ρ m' ρ' _ hagree
  refine ⟨fun c => Cert.Spec.matProduct
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.product_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
